-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 67
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .bf16⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .bf16⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x1, .f32⟩
  | .hbm, ⟨47, _⟩ => ⟨S1x128, .f32⟩
  | .hbm, ⟨48, _⟩ => ⟨S100000x1, .f32⟩
  | .hbm, ⟨49, _⟩ => ⟨S100000x128, .bf16⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .bf16⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x1, .f32⟩
  | .hbm, ⟨65, _⟩ => ⟨S1x64, .f32⟩
  | .hbm, ⟨66, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .bf16⟩
  | .local _ .vmem, ⟨5, _⟩ => ⟨S4000x128, .bf16⟩
  | .local _ .vmem, ⟨6, _⟩ => ⟨S4000x128, .f32⟩
  | .local _ .vmem, ⟨7, _⟩ => ⟨S4000x128, .f32⟩
  | .local _ .vmem, ⟨8, _⟩ => ⟨S4000x1, .f32⟩
  | .local _ .vmem, ⟨9, _⟩ => ⟨S4000x1, .f32⟩
  | .local _ .vmem, ⟨10, _⟩ => ⟨S128x128, .f32⟩
  | .local _ .vmem, ⟨11, _⟩ => ⟨S1x128, .f32⟩
  | .local _ .vmem, ⟨12, _⟩ => ⟨S4000x1, .f32⟩
  | .local _ .vmem, ⟨13, _⟩ => ⟨S4000x1, .f32⟩
  | .local _ .vmem, ⟨14, _⟩ => ⟨S4000x128, .bf16⟩
  | .local _ .vmem, ⟨15, _⟩ => ⟨S4000x128, .bf16⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S128x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S100000x64, .f32⟩
  | .hbm, ⟨101, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call2_cst : Ref sig .tc := ⟨.hbm, 53, rfl⟩
abbrev main_call2_v0 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_call3_v0 : Ref sig .tc := ⟨.hbm, 63, rfl⟩
abbrev main_call3_v1 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_call4_v0 : Ref sig .tc := ⟨.hbm, 71, rfl⟩
abbrev main_call4_v1 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_11 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call5_cst : Ref sig .tc := ⟨.hbm, 99, rfl⟩
abbrev main_call5_v0 : Ref sig .tc := ⟨.hbm, 100, rfl⟩
abbrev main_v67 : Ref sig .tc := ⟨.hbm, 101, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program, run from any launch memory: every weakly fair execution terminates without a fault, the six argument
  arrays end as launched, and the result array ends at what the last of the program's segment boundaries holds for it.
  The program is ten segments — five stretches of host operations, a kernel launch, a stretch, a launch, a stretch, a
  launch — and the contents of every unscoped buffer at each boundary are a fold from the launch memory: a stretch applies
  its operations, a launch replaces its output array by what its grid points wrote back and keeps every other buffer.
  The frame certificate proves exactly this and then forgets every buffer but the arguments; here the same run is stated
  with the result buffer kept, so that its value can be read off the fold.
-/
import proofs.«131777_j78039555768418_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result kept: the result array ends at the last boundary's contents `W10`, the arguments as launched. -/
theorem run : θ_run defs (onTc (τ := τ) (main (F := F))) ⟨m, fun _ => 0, ρ⟩ (fun r => ∀ c : Dev nD,
      r.2.mem ((c.tc : Thread nD τ).loc main_v45) = W10 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v45 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.WholeRun

end
-- ==== Proof.FirstEntry.lean ====
/-
  What the kernel program's buffers hold when its first launch is entered, in the reference's own words.

  The program's memory at each segment boundary is a fold from the launch memory. Before the first launch five stretches
  of host operations split the edge array into its source and destination rows, count each node's out- and in-degree by
  a scatter-add of ones, clip each count below at one, and take reciprocal square roots: exactly the reference's
  operations on the edge array. Each stretch is read by itself, from whatever memory it starts in; chained, they say that
  at the first launch's entry these four arrays ARE the reference's stages of the edge array and the arguments are
  untouched. The first launch's second operand is the out-degree factors laid out as a column.
-/
import proofs.«131777_j78039555768418_2_alg».proof.Proof.Gen.KernelIdeal.Frame
import proofs.«131777_j78039555768418_2_alg».proof.Proof.Gen.ReferenceIdeal.Read

set_option maxRecDepth 16384

noncomputable section

namespace Cert.KernelIdeal.FirstEntry

open Cert.KernelIdeal Cert.KernelIdeal.Gen Idealize.ShloMosaic Idealize.ShloMosaic.TcCoe Idealize.SL.Sem Idealize.ShloMosaic.StableHlo

/-! ## Each stretch by itself, from any memory `U` -/

section Stretches

variable (U : Valuation τ sig (Elt Ideal)) (e : (⟨Cert.ReferenceIdeal.S2x1600000, .i32⟩ : BufTy).Contents (Elt Ideal))

/-- Stretch 1: the source row, -/
theorem src_of : after hostOps0 U (Proc.devRef .tc main_v1) = Cert.ReferenceIdeal.Read.val_main_v1 (F := Ideal) (U (Proc.devRef .tc main_arg1)) := by
  dsimp only [hostOps0]; after_results <;> rfl
/-- the destination row, -/
theorem dst_of : after hostOps0 U (Proc.devRef .tc main_v3) = Cert.ReferenceIdeal.Read.val_main_v3 (F := Ideal) (U (Proc.devRef .tc main_arg1)) := by
  dsimp only [hostOps0]; after_results <;> rfl
/-- a one per edge, -/
theorem ones_of : after hostOps0 U (Proc.devRef .tc main_v4) = Cert.ReferenceIdeal.Read.val_main_v4 (F := Ideal) := by
  dsimp only [hostOps0]; after_results <;> rfl
/-- the out-degree counts, -/
theorem outCount_of : after hostOps0 U (Proc.devRef .tc main_v7) = Cert.ReferenceIdeal.Read.val_main_v7 (F := Ideal) (U (Proc.devRef .tc main_arg1)) := by
  dsimp only [hostOps0]; after_results <;> rfl
/-- and the clip's lower bound. -/
theorem bound1_of : after hostOps0 U (Proc.devRef .tc main_cst_1) = Cert.ReferenceIdeal.Read.val_main_cst_1 (F := Ideal) := by
  dsimp only [hostOps0]; after_results <;> rfl

/-- Stretch 2 clips the out-degree counts below at one: first in the program's own spelling (the called function's
    operations carry their buffers' types, transported along equations that are `rfl` at these buffers), -/
theorem outClip_raw : after hostOps0_1 U (Proc.devRef .tc main_v8)
    = (maximumf (F := Ideal) (φ := .f32)
        (broadcastInDim S100000 ![] bcast_S_S100000 (id (U (Proc.devRef .tc main_cst_1) : (⟨S_, .f32⟩ : BufTy).Contents (Elt Ideal))))
        (U (Proc.devRef .tc main_v7) : (⟨S100000, .f32⟩ : BufTy).Contents (Elt Ideal)) : (⟨S100000, .f32⟩ : BufTy).Contents (Elt Ideal)) := by
  dsimp only [hostOps0_1]; after_results <;> rfl
/-- then as the reference's stage. -/
theorem outClip_of (h1 : U (Proc.devRef .tc main_cst_1) = Cert.ReferenceIdeal.Read.val_main_cst_1 (F := Ideal))
    (h7 : U (Proc.devRef .tc main_v7) = Cert.ReferenceIdeal.Read.val_main_v7 (F := Ideal) e) :
    after hostOps0_1 U (Proc.devRef .tc main_v8) = Cert.ReferenceIdeal.Read.val_main_v8 (F := Ideal) e :=
  (outClip_raw U).trans (by rw [h1, h7]; rfl)
/-- and writes neither the destination row nor the ones. -/
theorem dst_kept2 : after hostOps0_1 U (Proc.devRef .tc main_v3) = U (Proc.devRef .tc main_v3) := by
  dsimp only [hostOps0_1]; after_results <;> rfl
theorem ones_kept2 : after hostOps0_1 U (Proc.devRef .tc main_v4) = U (Proc.devRef .tc main_v4) := by
  dsimp only [hostOps0_1]; after_results <;> rfl

/-- Stretch 3: the in-degree counts, -/
theorem inCount_of (h3 : U (Proc.devRef .tc main_v3) = Cert.ReferenceIdeal.Read.val_main_v3 (F := Ideal) e)
    (h4 : U (Proc.devRef .tc main_v4) = Cert.ReferenceIdeal.Read.val_main_v4 (F := Ideal)) :
    after hostOps0_2 U (Proc.devRef .tc main_v11) = Cert.ReferenceIdeal.Read.val_main_v11 (F := Ideal) e := by
  dsimp only [hostOps0_2]; after_results
  rw [h3, h4]
  rfl
/-- the second clip's lower bound; the clipped out-degree is not written. -/
theorem bound2_of : after hostOps0_2 U (Proc.devRef .tc main_cst_3) = Cert.ReferenceIdeal.Read.val_main_cst_3 (F := Ideal) := by
  dsimp only [hostOps0_2]; after_results <;> rfl
theorem outClip_kept3 : after hostOps0_2 U (Proc.devRef .tc main_v8) = U (Proc.devRef .tc main_v8) := by
  dsimp only [hostOps0_2]; after_results <;> rfl

/-- Stretch 4 clips the in-degree counts below at one, likewise; the clipped out-degree is not written. -/
theorem inClip_raw : after hostOps0_3 U (Proc.devRef .tc main_v12)
    = (maximumf (F := Ideal) (φ := .f32)
        (broadcastInDim S100000 ![] bcast_S_S100000 (id (U (Proc.devRef .tc main_cst_3) : (⟨S_, .f32⟩ : BufTy).Contents (Elt Ideal))))
        (U (Proc.devRef .tc main_v11) : (⟨S100000, .f32⟩ : BufTy).Contents (Elt Ideal)) : (⟨S100000, .f32⟩ : BufTy).Contents (Elt Ideal)) := by
  dsimp only [hostOps0_3]; after_results <;> rfl
theorem inClip_of (h1 : U (Proc.devRef .tc main_cst_3) = Cert.ReferenceIdeal.Read.val_main_cst_3 (F := Ideal))
    (h11 : U (Proc.devRef .tc main_v11) = Cert.ReferenceIdeal.Read.val_main_v11 (F := Ideal) e) :
    after hostOps0_3 U (Proc.devRef .tc main_v12) = Cert.ReferenceIdeal.Read.val_main_v12 (F := Ideal) e :=
  (inClip_raw U).trans (by rw [h1, h11]; rfl)
theorem outClip_kept4 : after hostOps0_3 U (Proc.devRef .tc main_v8) = U (Proc.devRef .tc main_v8) := by
  dsimp only [hostOps0_3]; after_results <;> rfl

/-- Stretch 5: the two reciprocal square roots, and the first as a column. -/
theorem outFactor_of (h8 : U (Proc.devRef .tc main_v8) = Cert.ReferenceIdeal.Read.val_main_v8 (F := Ideal) e) :
    after hostOps0_4 U (Proc.devRef .tc main_v13) = Cert.ReferenceIdeal.Read.val_main_v13 (F := Ideal) e := by
  dsimp only [hostOps0_4]; after_results
  rw [h8]
  rfl
theorem inFactor_of (h12 : U (Proc.devRef .tc main_v12) = Cert.ReferenceIdeal.Read.val_main_v12 (F := Ideal) e) :
    after hostOps0_4 U (Proc.devRef .tc main_v14) = Cert.ReferenceIdeal.Read.val_main_v27 (F := Ideal) e := by
  dsimp only [hostOps0_4]; after_results
  rw [h12]
  rfl
theorem outColumn_of (h8 : U (Proc.devRef .tc main_v8) = Cert.ReferenceIdeal.Read.val_main_v8 (F := Ideal) e) :
    after hostOps0_4 U (Proc.devRef .tc main_v15)
      = shapeCast S100000x1 (Cert.ReferenceIdeal.Read.val_main_v13 (F := Ideal) e) shapeCasts_S100000_S100000x1 := by
  dsimp only [hostOps0_4]; after_results
  rw [h8]
  rfl

end Stretches

/-! ## Chained: at the first launch's entry -/

variable (m : (ℓ : Loc nD τ sig) → Buf (Elt Ideal) ℓ) (ρ : Dev nD → PrngReg) (c : Dev nD)

/-- Unfolds the fold up to the first launch. -/
local macro "open_first" : tactic =>
  `(tactic| dsimp only [W5, W4, W3, W2, W1, W0, hostOps0, hostOps0_1, hostOps0_2, hostOps0_3, hostOps0_4])

theorem first_x : W5 m ρ c (Proc.devRef .tc main_arg0) = (m ((c.tc : Thread nD τ).loc main_arg0)) := by open_first; after_results_simp <;> rfl
theorem first_W1 : W5 m ρ c (Proc.devRef .tc main_arg2) = (m ((c.tc : Thread nD τ).loc main_arg2)) := by open_first; after_results_simp <;> rfl
theorem first_b1 : W5 m ρ c (Proc.devRef .tc main_arg3) = (m ((c.tc : Thread nD τ).loc main_arg3)) := by open_first; after_results_simp <;> rfl
theorem first_W2 : W5 m ρ c (Proc.devRef .tc main_arg4) = (m ((c.tc : Thread nD τ).loc main_arg4)) := by open_first; after_results_simp <;> rfl
theorem first_b2 : W5 m ρ c (Proc.devRef .tc main_arg5) = (m ((c.tc : Thread nD τ).loc main_arg5)) := by open_first; after_results_simp <;> rfl
/-- The source row of the edge array. -/
theorem first_src : W5 m ρ c (Proc.devRef .tc main_v1) = Cert.ReferenceIdeal.Read.val_main_v1 (F := Ideal) (m ((c.tc : Thread nD τ).loc main_arg1)) := by open_first; after_results_simp <;> rfl
/-- The destination row of the edge array. -/
theorem first_dst : W5 m ρ c (Proc.devRef .tc main_v3) = Cert.ReferenceIdeal.Read.val_main_v3 (F := Ideal) (m ((c.tc : Thread nD τ).loc main_arg1)) := by open_first; after_results_simp <;> rfl

/-- The clipped out-degree, after the fourth stretch. -/
theorem outClip_at4 : W4 m ρ c (Proc.devRef .tc main_v8) = Cert.ReferenceIdeal.Read.val_main_v8 (F := Ideal) (m ((c.tc : Thread nD τ).loc main_arg1)) :=
  (outClip_kept4 (W3 m ρ c)).trans ((outClip_kept3 (W2 m ρ c)).trans
    (outClip_of (W1 m ρ c) (m ((c.tc : Thread nD τ).loc main_arg1)) (bound1_of (W0 m ρ c)) (outCount_of (W0 m ρ c))))
/-- The clipped in-degree, after the fourth stretch. -/
theorem inClip_at4 : W4 m ρ c (Proc.devRef .tc main_v12) = Cert.ReferenceIdeal.Read.val_main_v12 (F := Ideal) (m ((c.tc : Thread nD τ).loc main_arg1)) :=
  inClip_of (W3 m ρ c) (m ((c.tc : Thread nD τ).loc main_arg1)) (bound2_of (W2 m ρ c))
    (inCount_of (W2 m ρ c) (m ((c.tc : Thread nD τ).loc main_arg1)) ((dst_kept2 (W1 m ρ c)).trans (dst_of (W0 m ρ c))) ((ones_kept2 (W1 m ρ c)).trans (ones_of (W0 m ρ c))))

/-- The reciprocal root of the clipped out-degree. -/
theorem first_out : W5 m ρ c (Proc.devRef .tc main_v13) = Cert.ReferenceIdeal.Read.val_main_v13 (F := Ideal) (m ((c.tc : Thread nD τ).loc main_arg1)) :=
  outFactor_of (W4 m ρ c) (m ((c.tc : Thread nD τ).loc main_arg1)) (outClip_at4 m ρ c)
/-- The reciprocal root of the clipped in-degree. -/
theorem first_in : W5 m ρ c (Proc.devRef .tc main_v14) = Cert.ReferenceIdeal.Read.val_main_v27 (F := Ideal) (m ((c.tc : Thread nD τ).loc main_arg1)) :=
  inFactor_of (W4 m ρ c) (m ((c.tc : Thread nD τ).loc main_arg1)) (inClip_at4 m ρ c)
/-- The first launch's column operand: the out-degree factors as a [100000, 1] column. -/
theorem first_col : V5 m ρ c main_v15 = shapeCast S100000x1 (Cert.ReferenceIdeal.Read.val_main_v13 (F := Ideal) (m ((c.tc : Thread nD τ).loc main_arg1))) shapeCasts_S100000_S100000x1 :=
  outColumn_of (W4 m ρ c) (m ((c.tc : Thread nD τ).loc main_arg1)) (outClip_at4 m ρ c)

end Cert.KernelIdeal.FirstEntry

end
-- ==== Proof.LaterEntries.lean ====
/-
  What the kernel program's buffers hold when its second and third launches are entered, in the reference's own words.

  No launch and no later host operation writes the source and destination rows, the two degree factors or the weight and
  bias arguments, so they are still at the later boundaries what they were at the first launch. Between two launches the
  host gathers the rows of the previous launch's output by (wrapped) source index, widens them to f32 — the identity on
  the extended reals — and adds them up by destination index into zeros: the reference's own operations, applied to the
  previous launch's output. Each launch's other operands are a factor vector laid out as a column, a weight matrix, and
  a bias laid out as a row.
-/
import proofs.«131777_j78039555768418_2_alg».proof.Proof.Gen.KernelIdeal.Frame
import proofs.«131777_j78039555768418_2_alg».proof.Proof.Gen.ReferenceIdeal.Read
import proofs.«131777_j78039555768418_2_alg».proof.Proof.FirstEntry

set_option maxRecDepth 16384

noncomputable section

namespace Cert.KernelIdeal.LaterEntries

open Cert.KernelIdeal Cert.KernelIdeal.Gen Cert.KernelIdeal.FirstEntry Idealize.ShloMosaic Idealize.ShloMosaic.TcCoe Idealize.SL.Sem Idealize.ShloMosaic.StableHlo

/-! ## The two stretches between launches, from any memory `U`: gather by source, add up by destination -/

section Aggregates

variable (U : Valuation τ sig (Elt Ideal))
  (x0 : (⟨Cert.ReferenceIdeal.S100000x128, .f32⟩ : BufTy).Contents (Elt Ideal)) (e : (⟨Cert.ReferenceIdeal.S2x1600000, .i32⟩ : BufTy).Contents (Elt Ideal))
  (x2 : (⟨Cert.ReferenceIdeal.S128x128, .f32⟩ : BufTy).Contents (Elt Ideal)) (x3 : (⟨Cert.ReferenceIdeal.S128, .f32⟩ : BufTy).Contents (Elt Ideal))

/-- If the first launch's output is the reference's scaled features and the edge rows are the reference's, the second
    launch's first operand is the reference's layer-1 aggregate. -/
theorem aggregate1_of (hH : U (Proc.devRef .tc main_v16) = Cert.ReferenceIdeal.Read.val_main_v16 (F := Ideal) x0 e)
    (h1 : U (Proc.devRef .tc main_v1) = Cert.ReferenceIdeal.Read.val_main_v1 (F := Ideal) e)
    (h3 : U (Proc.devRef .tc main_v3) = Cert.ReferenceIdeal.Read.val_main_v3 (F := Ideal) e) :
    after hostOps1 U (Proc.devRef .tc main_v27) = Cert.ReferenceIdeal.Read.val_main_v26 (F := Ideal) x0 e := by
  dsimp only [hostOps1]
  after_results
  rw [hH, h1, h3]
  rfl

/-- If the second launch's output is the reference's scaled hidden features and the edge rows are the reference's, the
    third launch's first operand is the reference's layer-2 aggregate. -/
theorem aggregate2_of (hH : U (Proc.devRef .tc main_v31) = Cert.ReferenceIdeal.Read.val_main_v48 (F := Ideal) x0 e x2 x3)
    (h1 : U (Proc.devRef .tc main_v1) = Cert.ReferenceIdeal.Read.val_main_v1 (F := Ideal) e)
    (h3 : U (Proc.devRef .tc main_v3) = Cert.ReferenceIdeal.Read.val_main_v3 (F := Ideal) e) :
    after hostOps2 U (Proc.devRef .tc main_v42) = Cert.ReferenceIdeal.Read.val_main_v58 (F := Ideal) x0 e x2 x3 := by
  dsimp only [hostOps2]
  after_results
  rw [hH, h1, h3]
  rfl

end Aggregates

variable (m : (ℓ : Loc nD τ sig) → Buf (Elt Ideal) ℓ) (ρ : Dev nD → PrngReg) (c : Dev nD)

/-! ## Carried across the first launch (it writes none of them) -/

theorem exit1_src : W6 m ρ c (Proc.devRef .tc main_v1) = Cert.ReferenceIdeal.Read.val_main_v1 (F := Ideal) (m ((c.tc : Thread nD τ).loc main_arg1)) := (W6_of_ne m ρ c main_v1 (by decide)).trans (first_src m ρ c)
theorem exit1_dst : W6 m ρ c (Proc.devRef .tc main_v3) = Cert.ReferenceIdeal.Read.val_main_v3 (F := Ideal) (m ((c.tc : Thread nD τ).loc main_arg1)) := (W6_of_ne m ρ c main_v3 (by decide)).trans (first_dst m ρ c)
theorem exit1_out : W6 m ρ c (Proc.devRef .tc main_v13) = Cert.ReferenceIdeal.Read.val_main_v13 (F := Ideal) (m ((c.tc : Thread nD τ).loc main_arg1)) := (W6_of_ne m ρ c main_v13 (by decide)).trans (first_out m ρ c)
theorem exit1_in : W6 m ρ c (Proc.devRef .tc main_v14) = Cert.ReferenceIdeal.Read.val_main_v27 (F := Ideal) (m ((c.tc : Thread nD τ).loc main_arg1)) := (W6_of_ne m ρ c main_v14 (by decide)).trans (first_in m ρ c)
theorem exit1_W1 : W6 m ρ c (Proc.devRef .tc main_arg2) = (m ((c.tc : Thread nD τ).loc main_arg2)) := (W6_of_ne m ρ c main_arg2 (by decide)).trans (first_W1 m ρ c)
theorem exit1_b1 : W6 m ρ c (Proc.devRef .tc main_arg3) = (m ((c.tc : Thread nD τ).loc main_arg3)) := (W6_of_ne m ρ c main_arg3 (by decide)).trans (first_b1 m ρ c)
theorem exit1_W2 : W6 m ρ c (Proc.devRef .tc main_arg4) = (m ((c.tc : Thread nD τ).loc main_arg4)) := (W6_of_ne m ρ c main_arg4 (by decide)).trans (first_W2 m ρ c)
theorem exit1_b2 : W6 m ρ c (Proc.devRef .tc main_arg5) = (m ((c.tc : Thread nD τ).loc main_arg5)) := (W6_of_ne m ρ c main_arg5 (by decide)).trans (first_b2 m ρ c)

/-- Unfolds the stretch between the first and the second launch. -/
local macro "open_second" : tactic => `(tactic| dsimp only [W7, hostOps1])

/-! ## At the second launch's entry -/

theorem second_src : W7 m ρ c (Proc.devRef .tc main_v1) = Cert.ReferenceIdeal.Read.val_main_v1 (F := Ideal) (m ((c.tc : Thread nD τ).loc main_arg1)) := by
  refine Eq.trans ?_ (exit1_src m ρ c); open_second; after_results <;> rfl
theorem second_dst : W7 m ρ c (Proc.devRef .tc main_v3) = Cert.ReferenceIdeal.Read.val_main_v3 (F := Ideal) (m ((c.tc : Thread nD τ).loc main_arg1)) := by
  refine Eq.trans ?_ (exit1_dst m ρ c); open_second; after_results <;> rfl
theorem second_inVec : W7 m ρ c (Proc.devRef .tc main_v14) = Cert.ReferenceIdeal.Read.val_main_v27 (F := Ideal) (m ((c.tc : Thread nD τ).loc main_arg1)) := by
  refine Eq.trans ?_ (exit1_in m ρ c); open_second; after_results <;> rfl
theorem second_W2 : W7 m ρ c (Proc.devRef .tc main_arg4) = (m ((c.tc : Thread nD τ).loc main_arg4)) := by
  refine Eq.trans ?_ (exit1_W2 m ρ c); open_second; after_results <;> rfl
theorem second_b2 : W7 m ρ c (Proc.devRef .tc main_arg5) = (m ((c.tc : Thread nD τ).loc main_arg5)) := by
  refine Eq.trans ?_ (exit1_b2 m ρ c); open_second; after_results <;> rfl

/-- The second launch's first operand: the first launch's output gathered by source and added up by destination —
    the reference's layer-1 aggregate, once the first launch's output is the reference's scaled features. -/
theorem second_agg (hH : W6 m ρ c (Proc.devRef .tc main_v16) = Cert.ReferenceIdeal.Read.val_main_v16 (F := Ideal) (m ((c.tc : Thread nD τ).loc main_arg0)) (m ((c.tc : Thread nD τ).loc main_arg1))) :
    V7 m ρ c main_v27 = Cert.ReferenceIdeal.Read.val_main_v26 (F := Ideal) (m ((c.tc : Thread nD τ).loc main_arg0)) (m ((c.tc : Thread nD τ).loc main_arg1)) :=
  aggregate1_of (W6 m ρ c) (m ((c.tc : Thread nD τ).loc main_arg0)) (m ((c.tc : Thread nD τ).loc main_arg1)) hH (exit1_src m ρ c) (exit1_dst m ρ c)
/-- The in-degree factors as a column. -/
theorem second_in : V7 m ρ c main_v28 = shapeCast S100000x1 (Cert.ReferenceIdeal.Read.val_main_v27 (F := Ideal) (m ((c.tc : Thread nD τ).loc main_arg1))) shapeCasts_S100000_S100000x1 := by
  show W7 m ρ c (Proc.devRef .tc main_v28) = _
  open_second; after_results
  rw [exit1_in m ρ c]
  rfl
theorem second_W : V7 m ρ c main_arg2 = (m ((c.tc : Thread nD τ).loc main_arg2)) := by
  show W7 m ρ c (Proc.devRef .tc main_arg2) = _
  refine Eq.trans ?_ (exit1_W1 m ρ c); open_second; after_results <;> rfl
/-- The layer-1 bias as a row. -/
theorem second_b : V7 m ρ c main_v29 = shapeCast S1x128 (m ((c.tc : Thread nD τ).loc main_arg3)) shapeCasts_S128_S1x128 := by
  show W7 m ρ c (Proc.devRef .tc main_v29) = _
  open_second; after_results
  rw [exit1_b1 m ρ c]
  rfl
/-- The out-degree factors as a column. -/
theorem second_out : V7 m ρ c main_v30 = shapeCast S100000x1 (Cert.ReferenceIdeal.Read.val_main_v13 (F := Ideal) (m ((c.tc : Thread nD τ).loc main_arg1))) shapeCasts_S100000_S100000x1 := by
  show W7 m ρ c (Proc.devRef .tc main_v30) = _
  open_second; after_results
  rw [exit1_out m ρ c]
  rfl

/-! ## Carried across the second launch -/

theorem exit2_src : W8 m ρ c (Proc.devRef .tc main_v1) = Cert.ReferenceIdeal.Read.val_main_v1 (F := Ideal) (m ((c.tc : Thread nD τ).loc main_arg1)) := (W8_of_ne m ρ c main_v1 (by decide)).trans (second_src m ρ c)
theorem exit2_dst : W8 m ρ c (Proc.devRef .tc main_v3) = Cert.ReferenceIdeal.Read.val_main_v3 (F := Ideal) (m ((c.tc : Thread nD τ).loc main_arg1)) := (W8_of_ne m ρ c main_v3 (by decide)).trans (second_dst m ρ c)
theorem exit2_in : W8 m ρ c (Proc.devRef .tc main_v14) = Cert.ReferenceIdeal.Read.val_main_v27 (F := Ideal) (m ((c.tc : Thread nD τ).loc main_arg1)) := (W8_of_ne m ρ c main_v14 (by decide)).trans (second_inVec m ρ c)
theorem exit2_W2 : W8 m ρ c (Proc.devRef .tc main_arg4) = (m ((c.tc : Thread nD τ).loc main_arg4)) := (W8_of_ne m ρ c main_arg4 (by decide)).trans (second_W2 m ρ c)
theorem exit2_b2 : W8 m ρ c (Proc.devRef .tc main_arg5) = (m ((c.tc : Thread nD τ).loc main_arg5)) := (W8_of_ne m ρ c main_arg5 (by decide)).trans (second_b2 m ρ c)

/-- Unfolds the stretch between the second and the third launch. -/
local macro "open_third" : tactic => `(tactic| dsimp only [W9, hostOps2])

/-! ## At the third launch's entry -/

/-- The third launch's first operand: the second launch's output gathered by source and added up by destination —
    the reference's layer-2 aggregate, once the second launch's output is the reference's scaled hidden features. -/
theorem third_agg (hH : W8 m ρ c (Proc.devRef .tc main_v31) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3))) :
    V9 m ρ c main_v42 = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) :=
  aggregate2_of (W8 m ρ c) (m ((c.tc : Thread nD τ).loc main_arg0)) (m ((c.tc : Thread nD τ).loc main_arg1)) (m ((c.tc : Thread nD τ).loc main_arg2)) (m ((c.tc : Thread nD τ).loc main_arg3)) hH (exit2_src m ρ c) (exit2_dst m ρ c)
/-- The in-degree factors as a column. -/
theorem third_in : V9 m ρ c main_v43 = shapeCast S100000x1 (Cert.ReferenceIdeal.Read.val_main_v27 (F := Ideal) (m ((c.tc : Thread nD τ).loc main_arg1))) shapeCasts_S100000_S100000x1 := by
  show W9 m ρ c (Proc.devRef .tc main_v43) = _
  open_third; after_results
  rw [exit2_in m ρ c]
  rfl
theorem third_W : V9 m ρ c main_arg4 = (m ((c.tc : Thread nD τ).loc main_arg4)) := by
  show W9 m ρ c (Proc.devRef .tc main_arg4) = _
  refine Eq.trans ?_ (exit2_W2 m ρ c); open_third; after_results <;> rfl
/-- The layer-2 bias as a row. -/
theorem third_b : V9 m ρ c main_v44 = shapeCast S1x64 (m ((c.tc : Thread nD τ).loc main_arg5)) shapeCasts_S64_S1x64 := by
  show W9 m ρ c (Proc.devRef .tc main_v44) = _
  open_third; after_results
  rw [exit2_b2 m ρ c]
  rfl

end Cert.KernelIdeal.LaterEntries

end
-- ==== Proof.RowScale.lean ====
/-
  The first of the three kernel launches. Its grid has 25 points; point t reads rows 4000·t … 4000·t + 3999 of the
  [100000, 128] feature array and the same rows of a [100000, 1] column of per-row factors, multiplies every entry of a
  row by that row's factor, and writes the 4000 × 128 block back to the same rows of the output. On the extended reals
  the change of float format on the way out is the identity, so after the launch the output holds
  x[r, j] · d[r, 0] at every (r, j): one function of the two arrays as the launch found them, whatever they held.
-/
import proofs.«131777_j78039555768418_2_alg».proof.Proof.Gen.KernelIdeal.Frame
import Idealize.ShloMosaic.Lib.Pipeline.Value
import Idealize.ShloMosaic.Lib.ValueIdx

noncomputable section

namespace Cert.KernelIdeal.RowScale

open Cert.KernelIdeal Cert.KernelIdeal.Gen Idealize.ShloMosaic Idealize.ShloMosaic.TcCoe Idealize.SL.Sem
open Idealize.ShloMosaic.Pipeline (Dat)

/-- The entry of a one-column array that sits in the row of `i`. -/
abbrev colOfBlock (i : S4000x128.Idx) : S4000x1.Idx := fun a => match a with
  | ⟨0, _⟩ => ⟨(i 0).val, (i 0).isLt⟩
  | ⟨1, _⟩ => ⟨0, Nat.one_pos⟩

/-- The same for the whole arrays. -/
abbrev colOf (i : S100000x128.Idx) : S100000x1.Idx := fun a => match a with
  | ⟨0, _⟩ => ⟨(i 0).val, (i 0).isLt⟩
  | ⟨1, _⟩ => ⟨0, Nat.one_pos⟩

/-- Every row of `x` times that row's entry of the column `d`. -/
def scaled (x : S100000x128.Idx → Elt Ideal .f32) (d : S100000x1.Idx → Elt Ideal .f32) : S100000x128.Idx → Elt Ideal .bf16 :=
  fun i => x i * d (colOf i)

/-- The body's arithmetic at one entry of a block: the block's entry times its row's factor. -/
theorem pay_apply (x0 : Vec Ideal S4000x128 .f32) (x1 : Vec Ideal S4000x1 .f32) (j : S4000x128.Idx) :
    k0_pay1 x0 x1 j = x0 j * x1 (colOfBlock j) := by
  unfold k0_pay1
  rw [ValueIdx.truncf_apply, ValueIdx.mulf_apply, shapeCast_self]
  refine congrArg (x0 j * ·) ?_
  exact broadcastTo_apply x1 _ j (colOfBlock j) (fun a => by
    match a with
    | ⟨0, _⟩ => rfl
    | ⟨1, _⟩ => rfl)

theorem zeroOffsets : (![0, 0] : Fin 2 → Nat) = fun _ => 0 := funext fun a => by fin_cases a <;> rfl

/-- The printed index maps over the 25 grid points: every window's block index is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `scaled` of the two arrays as the launch found them. -/
theorem flushed_eq (c : Dev nD) (t : Fin cfg0.N) :
    (dat0 V c).flushed 2 t = ((cfg0.win 2).blk t).view.read (Elt Ideal) (scaled (V c main_arg0) (V c main_v15)) := by
  show (cfg0.win 2).cut (grid0.coords t) ((dat0 V c).after 2 t) = _
  rw [after0_2]
  unfold out0_2
  rw [View.canon_unit_zero zeroOffsets]
  simp only [View.ld_unit_zero (S := S4000x128) zeroOffsets, View.ld_unit_zero (S := S4000x1) zeroOffsets]
  obtain ⟨e0, e1, e2, e3, e4, e5⟩ := idx_facts t
  funext j
  show k0_pay1 (iblk0 V c 0 t) (iblk0 V c 1 t) j = scaled (V c main_arg0) (V c main_v15) (((cfg0.win 2).blk t).view.emb j)
  refine (pay_apply _ _ j).trans ?_
  have h0 : iblk0 V c 0 t j = V c main_arg0 (((cfg0.win 2).blk t).view.emb j) := by
    show V c main_arg0 (((cfg0.win 0).blk t).view.emb j) = _
    refine congrArg (V c main_arg0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * (j 1).val = win0_2.index t (1 : Fin 2) * 128 + 1 * (j 1).val; omega
  have h1 : iblk0 V c 1 t (colOfBlock j) = V c main_v15 (colOf (((cfg0.win 2).blk t).view.emb j)) := by
    show V c main_v15 (((cfg0.win 1).blk t).view.emb (colOfBlock j)) = _
    refine congrArg (V c main_v15) (funext fun a => Fin.ext ?_)
    match a with
    | ⟨0, _⟩ => show win0_1.index t (0 : Fin 2) * 4000 + 1 * (j 0).val = win0_2.index t (0 : Fin 2) * 4000 + 1 * (j 0).val; omega
    | ⟨1, _⟩ => show win0_1.index t (1 : Fin 2) * 1 + 1 * 0 = 0; omega
  rw [h0, h1]
  rfl

/-- An index of the output is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v16).slice (win0_2.rect t)).set ↔ _
  rw [View.set_slice_whole, Rect.mem_set_unit]
  exact Iff.rfl

/-- Row r lies in the block of point r / 4000: the 25 blocks tile the output. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 4000, by show (i 0).val / 4000 < 25; omega⟩, flush0_2 _, ?_⟩
  rw [mem_blk]
  obtain ⟨e0, e1, e2, e3, e4, e5⟩ := idx_facts ⟨(i 0).val / 4000, by show (i 0).val / 4000 < 25; omega⟩
  intro a
  match a with
  | ⟨0, _⟩ =>
    show win0_2.index _ (0 : Fin 2) * 4000 ≤ (i 0).val ∧ (i 0).val < win0_2.index _ (0 : Fin 2) * 4000 + 4000
    rw [e4]; show (i 0).val / 4000 * 4000 ≤ (i 0).val ∧ (i 0).val < (i 0).val / 4000 * 4000 + 4000; omega
  | ⟨1, _⟩ =>
    show win0_2.index _ (1 : Fin 2) * 128 ≤ (i 1).val ∧ (i 1).val < win0_2.index _ (1 : Fin 2) * 128 + 128
    rw [e5]; omega

/-- After the launch the output array is `scaled` of the two input arrays as the launch found them. -/
theorem final (c : Dev nD) : (dat0 V c).arrAt 2 cfg0.N = scaled (V c main_arg0) (V c main_v15) :=
  (dat0 V c).arrAt_eq_of_cover 2 _ (fun t _ => flushed_eq V c t) cover

end Cert.KernelIdeal.RowScale

end
-- ==== Proof.HiddenLayer.lean ====
/-
  The second kernel launch: the dense half of the first graph-convolution layer. Point t of its 25-point grid reads
  rows 4000·t … 4000·t + 3999 of the aggregated features A ([100000, 128]) and of two [100000, 1] columns of per-row
  factors d and e, and the whole weight matrix W ([128, 128]) and bias row b ([1, 128]), and writes the same rows of

      out[r, c] = max( Σ_k (A[r, k] · d[r, 0]) · W[k, c] + b[0, c], 0 ) · e[r, 0].

  On the extended reals the changes of float format around the matrix product are the identity and the product into a
  zero accumulator is the plain sum over k, so after the launch the output array is that one function of the five
  arrays as the launch found them. The 25 blocks tile the rows, so nothing of the output's earlier contents is left.
-/
import proofs.«131777_j78039555768418_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.HiddenLayer

open Cert.KernelIdeal Cert.KernelIdeal.Gen Idealize.ShloMosaic Idealize.ShloMosaic.TcCoe Idealize.SL.Sem
open Idealize.ShloMosaic.Pipeline (Dat)

/-! ## Indices: within a 4000-row block, and within the whole arrays -/

/-- In a block: the entry of a one-column array in the row of `j`. -/
abbrev colB (j : S4000x128.Idx) : S4000x1.Idx := fun a => match a with
  | ⟨0, _⟩ => ⟨(j 0).val, (j 0).isLt⟩
  | ⟨1, _⟩ => ⟨0, Nat.one_pos⟩
/-- In a block: the entry of the bias row in the column of `j`. -/
abbrev rowB (j : S4000x128.Idx) : S1x128.Idx := fun a => match a with
  | ⟨0, _⟩ => ⟨0, Nat.one_pos⟩
  | ⟨1, _⟩ => ⟨(j 1).val, (j 1).isLt⟩
/-- In a block: entry k of the row of `j`. -/
abbrev lhsB (j : S4000x128.Idx) (k : Fin 128) : S4000x128.Idx := fun a => match a with
  | ⟨0, _⟩ => ⟨(j 0).val, (j 0).isLt⟩
  | ⟨1, _⟩ => ⟨k.val, k.isLt⟩
/-- Entry k of the weight matrix's column that `j` sits in. -/
abbrev rhsB (j : S4000x128.Idx) (k : Fin 128) : S128x128.Idx := fun a => match a with
  | ⟨0, _⟩ => ⟨k.val, k.isLt⟩
  | ⟨1, _⟩ => ⟨(j 1).val, (j 1).isLt⟩

/-- The same four for the whole arrays. -/
abbrev colA (i : S100000x128.Idx) : S100000x1.Idx := fun a => match a with
  | ⟨0, _⟩ => ⟨(i 0).val, (i 0).isLt⟩
  | ⟨1, _⟩ => ⟨0, Nat.one_pos⟩
abbrev rowA (i : S100000x128.Idx) : S1x128.Idx := fun a => match a with
  | ⟨0, _⟩ => ⟨0, Nat.one_pos⟩
  | ⟨1, _⟩ => ⟨(i 1).val, (i 1).isLt⟩
abbrev lhsA (i : S100000x128.Idx) (k : Fin 128) : S100000x128.Idx := fun a => match a with
  | ⟨0, _⟩ => ⟨(i 0).val, (i 0).isLt⟩
  | ⟨1, _⟩ => ⟨k.val, k.isLt⟩
abbrev rhsA (i : S100000x128.Idx) (k : Fin 128) : S128x128.Idx := fun a => match a with
  | ⟨0, _⟩ => ⟨k.val, k.isLt⟩
  | ⟨1, _⟩ => ⟨(i 1).val, (i 1).isLt⟩

/-! ## The launch's result as one function of its five arrays -/

/-- `max(Σ_k (A[r,k]·d[r]) · W[k,c] + b[c], 0) · e[r]` at (r, c). The zero is kept as the float word both programs
    print for it. -/
def hidden (A : S100000x128.Idx → Elt Ideal .f32) (d : S100000x1.Idx → Elt Ideal .f32) (W : S128x128.Idx → Elt Ideal .f32)
    (b : S1x128.Idx → Elt Ideal .f32) (e : S100000x1.Idx → Elt Ideal .f32) : S100000x128.Idx → Elt Ideal .bf16 :=
  fun i => max ((∑ k : Fin 128, (A (lhsA i k) * d (colA i)) * W (rhsA i k)) + b (rowA i)) (Ideal.ofBits .f32 0x00000000#32) * e (colA i)

/-! ## The body's arithmetic at one entry of a block -/

/-- A column of factors spread over the 128 lanes reads, at `j`, the factor of `j`'s row. -/
theorem spreadCol_apply (v : Vec Ideal S4000x1 .f32) (h : S4000x1.Broadcasts S4000x128) (j : S4000x128.Idx) :
    broadcastTo S4000x128 v h j = v (colB j) :=
  broadcastTo_apply v h j (colB j) (fun a => by
    match a with
    | ⟨0, _⟩ => rfl
    | ⟨1, _⟩ => rfl)

/-- The bias row spread over the 4000 rows reads, at `j`, the bias of `j`'s column. -/
theorem spreadRow_apply (v : Vec Ideal S1x128 .f32) (h : S1x128.Broadcasts S4000x128) (j : S4000x128.Idx) :
    broadcastTo S4000x128 v h j = v (rowB j) :=
  broadcastTo_apply v h j (rowB j) (fun a => by
    match a with
    | ⟨0, _⟩ => rfl
    | ⟨1, _⟩ => rfl)

local notation "D" => dot_S4000x128_S128x128_S4000x128_1_0_0_1_n_n

theorem lhs0 (j : S4000x128.Idx) (q : (D).contr.Idx) : ((D).lhsIdx j q 0).val = (j 0).val := by
  unfold DotDims.lhsIdx
  rw [dif_neg (show ¬(0 : Fin S4000x128.rank) ∈ (D).lhsBatch by decide), dif_pos (show (0 : Fin S4000x128.rank) ∈ (D).lhsNonContracting by decide)]
  rfl
theorem lhs1 (j : S4000x128.Idx) (q : (D).contr.Idx) : ((D).lhsIdx j q 1).val = (q ⟨0, by decide⟩).val :=
  (D).lhsIdx_val_of_single rfl j q
theorem rhs0 (j : S4000x128.Idx) (q : (D).contr.Idx) : ((D).rhsIdx j q 0).val = (q ⟨0, by decide⟩).val :=
  (D).rhsIdx_val_of_single rfl j q
theorem rhs1 (j : S4000x128.Idx) (q : (D).contr.Idx) : ((D).rhsIdx j q 1).val = (j 1).val := by
  unfold DotDims.rhsIdx
  rw [dif_neg (show ¬(1 : Fin S128x128.rank) ∈ (D).rhsBatch by decide), dif_pos (show (1 : Fin S128x128.rank) ∈ (D).rhsNonContracting by decide)]
  rfl

/-- The block's matrix product into a zero accumulator is, at (r, c), the sum over k of row r times column c. -/
theorem product_apply (l : FVec Ideal S4000x128 .bf16) (r : FVec Ideal S128x128 .bf16) (j : S4000x128.Idx) :
    matmul (D) none l r (constant S4000x128 .f32 0x00000000#32) j = ∑ k : Fin 128, l (lhsB j k) * r (rhsB j k) := by
  simp only [matmul]
  rw [Ideal.matmul_constant_zero_apply, ← Equiv.sum_comp (ValueIdx.contrEquiv1 (D) 128 rfl rfl).symm]
  refine Finset.sum_congr rfl fun k _ => ?_
  have hk := ValueIdx.contrEquiv1_symm_val (D) 128 rfl rfl k
  have el : (D).lhsIdx j ((ValueIdx.contrEquiv1 (D) 128 rfl rfl).symm k) = lhsB j k := funext fun a => Fin.ext (by
    match a with
    | ⟨0, _⟩ => exact lhs0 _ _
    | ⟨1, _⟩ => exact (lhs1 _ _).trans hk)
  have er : (D).rhsIdx j ((ValueIdx.contrEquiv1 (D) 128 rfl rfl).symm k) = rhsB j k := funext fun a => Fin.ext (by
    match a with
    | ⟨0, _⟩ => exact (rhs0 _ _).trans hk
    | ⟨1, _⟩ => exact rhs1 _ _)
  rw [el, er]

/-- The whole payload at (r, c) of a block. -/
theorem pay_apply (v0 : Vec Ideal S4000x128 .f32) (v2 : Vec Ideal S4000x1 .f32) (v7 : Vec Ideal S128x128 .f32)
    (v10 : Vec Ideal S1x128 .f32) (v16 : Vec Ideal S4000x1 .f32) (j : S4000x128.Idx) :
    k1_pay1 v0 v2 v7 v10 v16 j
      = max ((∑ k : Fin 128, (v0 (lhsB j k) * v2 (colB j)) * v7 (rhsB j k)) + v10 (rowB j)) (Ideal.ofBits .f32 0x00000000#32) * v16 (colB j) := by
  unfold k1_pay1
  simp only [ValueIdx.truncf_apply, ValueIdx.mulf_apply, ValueIdx.maximumf_apply, ValueIdx.addf_apply, shapeCast_self, ValueIdx.broadcast_apply]
  rw [product_apply, spreadRow_apply, spreadCol_apply]
  refine congrArg (fun s => max (s + v10 (rowB j)) _ * v16 (colB j)) (Finset.sum_congr rfl fun k _ => ?_)
  rw [ValueIdx.truncf_apply, ValueIdx.truncf_apply, ValueIdx.mulf_apply, spreadCol_apply]

theorem zeroOffsets : (![0, 0] : Fin 2 → Nat) = fun _ => 0 := funext fun a => by fin_cases a <;> rfl

/-- The printed index maps over the 25 grid points: the row-tiled windows sit at block (t, 0), the weight matrix and the
    bias row at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back is block `t` of `hidden` of the five arrays as the launch found them. -/
theorem flushed_eq (c : Dev nD) (t : Fin cfg1.N) :
    (dat1 V c).flushed 5 t = ((cfg1.win 5).blk t).view.read (Elt Ideal)
      (hidden (V c main_v27) (V c main_v28) (V c main_arg2) (V c main_v29) (V c main_v30)) := by
  show (cfg1.win 5).cut (grid1.coords t) ((dat1 V c).after 5 t) = _
  rw [after1_5]
  unfold out1_5
  rw [View.canon_unit_zero zeroOffsets]
  simp only [View.ld_unit_zero (S := S4000x128) zeroOffsets, View.ld_unit_zero (S := S4000x1) zeroOffsets,
    View.ld_unit_zero (S := S128x128) zeroOffsets, View.ld_unit_zero (S := S1x128) zeroOffsets]
  obtain ⟨e00, e01, e10, e11, e20, e21, e30, e31, e40, e41, e50, e51⟩ := idx_facts t
  funext j
  show k1_pay1 (iblk1 V c 0 t) (iblk1 V c 1 t) (iblk1 V c 2 t) (iblk1 V c 3 t) (iblk1 V c 4 t) j
    = hidden (V c main_v27) (V c main_v28) (V c main_arg2) (V c main_v29) (V c main_v30) (((cfg1.win 5).blk t).view.emb j)
  refine (pay_apply _ _ _ _ _ j).trans ?_
  have hA : ∀ k : Fin 128, iblk1 V c 0 t (lhsB j k) = V c main_v27 (lhsA (((cfg1.win 5).blk t).view.emb j) k) := fun k => by
    show V c main_v27 (((cfg1.win 0).blk t).view.emb (lhsB j k)) = _
    refine congrArg (V c main_v27) (funext fun a => Fin.ext ?_)
    match a with
    | ⟨0, _⟩ => show win1_0.index t (0 : Fin 2) * 4000 + 1 * (j 0).val = win1_5.index t (0 : Fin 2) * 4000 + 1 * (j 0).val; omega
    | ⟨1, _⟩ => show win1_0.index t (1 : Fin 2) * 128 + 1 * k.val = k.val; omega
  have hd : iblk1 V c 1 t (colB j) = V c main_v28 (colA (((cfg1.win 5).blk t).view.emb j)) := by
    show V c main_v28 (((cfg1.win 1).blk t).view.emb (colB j)) = _
    refine congrArg (V c main_v28) (funext fun a => Fin.ext ?_)
    match a with
    | ⟨0, _⟩ => show win1_1.index t (0 : Fin 2) * 4000 + 1 * (j 0).val = win1_5.index t (0 : Fin 2) * 4000 + 1 * (j 0).val; omega
    | ⟨1, _⟩ => show win1_1.index t (1 : Fin 2) * 1 + 1 * 0 = 0; omega
  have hW : ∀ k : Fin 128, iblk1 V c 2 t (rhsB j k) = V c main_arg2 (rhsA (((cfg1.win 5).blk t).view.emb j) k) := fun k => by
    show V c main_arg2 (((cfg1.win 2).blk t).view.emb (rhsB j k)) = _
    refine congrArg (V c main_arg2) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have hb : iblk1 V c 3 t (rowB j) = V c main_v29 (rowA (((cfg1.win 5).blk t).view.emb j)) := by
    show V c main_v29 (((cfg1.win 3).blk t).view.emb (rowB j)) = _
    refine congrArg (V c main_v29) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have he : iblk1 V c 4 t (colB j) = V c main_v30 (colA (((cfg1.win 5).blk t).view.emb j)) := by
    show V c main_v30 (((cfg1.win 4).blk t).view.emb (colB j)) = _
    refine congrArg (V c main_v30) (funext fun a => Fin.ext ?_)
    match a with
    | ⟨0, _⟩ => show win1_4.index t (0 : Fin 2) * 4000 + 1 * (j 0).val = win1_5.index t (0 : Fin 2) * 4000 + 1 * (j 0).val; omega
    | ⟨1, _⟩ => show win1_4.index t (1 : Fin 2) * 1 + 1 * 0 = 0; omega
  rw [hd, hb, he]
  unfold hidden
  refine congrArg (fun s => max (s + _) _ * _) (Finset.sum_congr rfl fun k _ => ?_)
  rw [hA k, hW k]

/-- An index of the output is in point `t`'s block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v31).slice (win1_5.rect t)).set ↔ _
  rw [View.set_slice_whole, Rect.mem_set_unit]
  exact Iff.rfl

/-- Row r lies in the block of point r / 4000: the 25 blocks tile the output. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 4000, by show (i 0).val / 4000 < 25; omega⟩, flush1_5 _, ?_⟩
  rw [mem_blk]
  obtain ⟨e00, e01, e10, e11, e20, e21, e30, e31, e40, e41, e50, e51⟩ := idx_facts ⟨(i 0).val / 4000, by show (i 0).val / 4000 < 25; omega⟩
  intro a
  match a with
  | ⟨0, _⟩ =>
    show win1_5.index _ (0 : Fin 2) * 4000 ≤ (i 0).val ∧ (i 0).val < win1_5.index _ (0 : Fin 2) * 4000 + 4000
    rw [e50]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e51]; omega

/-- After the launch the output array is `hidden` of the five input arrays as the launch found them. -/
theorem final (c : Dev nD) : (dat1 V c).arrAt 5 cfg1.N
    = hidden (V c main_v27) (V c main_v28) (V c main_arg2) (V c main_v29) (V c main_v30) :=
  (dat1 V c).arrAt_eq_of_cover 5 _ (fun t _ => flushed_eq V c t) cover

end Cert.KernelIdeal.HiddenLayer

end
-- ==== Proof.OutputLayer.lean ====
/-
  The third kernel launch: the dense half of the second graph-convolution layer. Point t of its 25-point grid reads
  rows 4000·t … 4000·t + 3999 of the aggregated hidden features A ([100000, 128]) and of a [100000, 1] column of per-row
  factors d, and the whole weight matrix W ([128, 64]) and bias row b ([1, 64]), and writes the same rows of

      out[r, c] = max( Σ_k (A[r, k] · d[r, 0]) · W[k, c] + b[0, c], 0 ).

  On the extended reals the changes of float format before the matrix product are the identity and the product into a
  zero accumulator is the plain sum over k, so after the launch the output array is that one function of the four
  arrays as the launch found them; the 25 blocks tile its rows.
-/
import proofs.«131777_j78039555768418_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.OutputLayer

open Cert.KernelIdeal Cert.KernelIdeal.Gen Idealize.ShloMosaic Idealize.ShloMosaic.TcCoe Idealize.SL.Sem
open Idealize.ShloMosaic.Pipeline (Dat)

/-! ## Indices: within a 4000-row block, and within the whole arrays -/

/-- In a block: the entry of a one-column array in the row of `j`. -/
abbrev colB (j : S4000x64.Idx) : S4000x1.Idx := fun a => match a with
  | ⟨0, _⟩ => ⟨(j 0).val, (j 0).isLt⟩
  | ⟨1, _⟩ => ⟨0, Nat.one_pos⟩
/-- The same from an index of the 128-wide input block. -/
abbrev colB' (j : S4000x128.Idx) : S4000x1.Idx := fun a => match a with
  | ⟨0, _⟩ => ⟨(j 0).val, (j 0).isLt⟩
  | ⟨1, _⟩ => ⟨0, Nat.one_pos⟩
/-- In a block: the entry of the bias row in the column of `j`. -/
abbrev rowB (j : S4000x64.Idx) : S1x64.Idx := fun a => match a with
  | ⟨0, _⟩ => ⟨0, Nat.one_pos⟩
  | ⟨1, _⟩ => ⟨(j 1).val, (j 1).isLt⟩
/-- In the input block: entry k of the row of `j`. -/
abbrev lhsB (j : S4000x64.Idx) (k : Fin 128) : S4000x128.Idx := fun a => match a with
  | ⟨0, _⟩ => ⟨(j 0).val, (j 0).isLt⟩
  | ⟨1, _⟩ => ⟨k.val, k.isLt⟩
/-- Entry k of the weight matrix's column that `j` sits in. -/
abbrev rhsB (j : S4000x64.Idx) (k : Fin 128) : S128x64.Idx := fun a => match a with
  | ⟨0, _⟩ => ⟨k.val, k.isLt⟩
  | ⟨1, _⟩ => ⟨(j 1).val, (j 1).isLt⟩

/-- The same four for the whole arrays. -/
abbrev colA (i : S100000x64.Idx) : S100000x1.Idx := fun a => match a with
  | ⟨0, _⟩ => ⟨(i 0).val, (i 0).isLt⟩
  | ⟨1, _⟩ => ⟨0, Nat.one_pos⟩
abbrev rowA (i : S100000x64.Idx) : S1x64.Idx := fun a => match a with
  | ⟨0, _⟩ => ⟨0, Nat.one_pos⟩
  | ⟨1, _⟩ => ⟨(i 1).val, (i 1).isLt⟩
abbrev lhsA (i : S100000x64.Idx) (k : Fin 128) : S100000x128.Idx := fun a => match a with
  | ⟨0, _⟩ => ⟨(i 0).val, (i 0).isLt⟩
  | ⟨1, _⟩ => ⟨k.val, k.isLt⟩
abbrev rhsA (i : S100000x64.Idx) (k : Fin 128) : S128x64.Idx := fun a => match a with
  | ⟨0, _⟩ => ⟨k.val, k.isLt⟩
  | ⟨1, _⟩ => ⟨(i 1).val, (i 1).isLt⟩

/-! ## The launch's result as one function of its four arrays -/

/-- `max(Σ_k (A[r,k]·d[r]) · W[k,c] + b[c], 0)` at (r, c). The zero is kept as the float word both programs print
    for it. -/
def output (A : S100000x128.Idx → Elt Ideal .f32) (d : S100000x1.Idx → Elt Ideal .f32) (W : S128x64.Idx → Elt Ideal .f32)
    (b : S1x64.Idx → Elt Ideal .f32) : S100000x64.Idx → Elt Ideal .f32 :=
  fun i => max ((∑ k : Fin 128, (A (lhsA i k) * d (colA i)) * W (rhsA i k)) + b (rowA i)) (Ideal.ofBits .f32 0x00000000#32)

/-! ## The body's arithmetic at one entry of a block -/

/-- A column of factors spread over the 128 lanes of the input block reads, at `j`, the factor of `j`'s row. -/
theorem spreadCol_apply (v : Vec Ideal S4000x1 .f32) (h : S4000x1.Broadcasts S4000x128) (j : S4000x128.Idx) :
    broadcastTo S4000x128 v h j = v (colB' j) :=
  broadcastTo_apply v h j (colB' j) (fun a => by
    match a with
    | ⟨0, _⟩ => rfl
    | ⟨1, _⟩ => rfl)

/-- The bias row spread over the 4000 rows reads, at `j`, the bias of `j`'s column. -/
theorem spreadRow_apply (v : Vec Ideal S1x64 .f32) (h : S1x64.Broadcasts S4000x64) (j : S4000x64.Idx) :
    broadcastTo S4000x64 v h j = v (rowB j) :=
  broadcastTo_apply v h j (rowB j) (fun a => by
    match a with
    | ⟨0, _⟩ => rfl
    | ⟨1, _⟩ => rfl)

local notation "D" => dot_S4000x128_S128x64_S4000x64_1_0_0_1_n_n

theorem lhs0 (j : S4000x64.Idx) (q : (D).contr.Idx) : ((D).lhsIdx j q 0).val = (j 0).val := by
  unfold DotDims.lhsIdx
  rw [dif_neg (show ¬(0 : Fin S4000x128.rank) ∈ (D).lhsBatch by decide), dif_pos (show (0 : Fin S4000x128.rank) ∈ (D).lhsNonContracting by decide)]
  rfl
theorem lhs1 (j : S4000x64.Idx) (q : (D).contr.Idx) : ((D).lhsIdx j q 1).val = (q ⟨0, by decide⟩).val :=
  (D).lhsIdx_val_of_single rfl j q
theorem rhs0 (j : S4000x64.Idx) (q : (D).contr.Idx) : ((D).rhsIdx j q 0).val = (q ⟨0, by decide⟩).val :=
  (D).rhsIdx_val_of_single rfl j q
theorem rhs1 (j : S4000x64.Idx) (q : (D).contr.Idx) : ((D).rhsIdx j q 1).val = (j 1).val := by
  unfold DotDims.rhsIdx
  rw [dif_neg (show ¬(1 : Fin S128x64.rank) ∈ (D).rhsBatch by decide), dif_pos (show (1 : Fin S128x64.rank) ∈ (D).rhsNonContracting by decide)]
  rfl

/-- The block's matrix product into a zero accumulator is, at (r, c), the sum over k of row r times column c. -/
theorem product_apply (l : FVec Ideal S4000x128 .bf16) (r : FVec Ideal S128x64 .bf16) (j : S4000x64.Idx) :
    matmul (D) none l r (constant S4000x64 .f32 0x00000000#32) j = ∑ k : Fin 128, l (lhsB j k) * r (rhsB j k) := by
  simp only [matmul]
  rw [Ideal.matmul_constant_zero_apply, ← Equiv.sum_comp (ValueIdx.contrEquiv1 (D) 128 rfl rfl).symm]
  refine Finset.sum_congr rfl fun k _ => ?_
  have hk := ValueIdx.contrEquiv1_symm_val (D) 128 rfl rfl k
  have el : (D).lhsIdx j ((ValueIdx.contrEquiv1 (D) 128 rfl rfl).symm k) = lhsB j k := funext fun a => Fin.ext (by
    match a with
    | ⟨0, _⟩ => exact lhs0 _ _
    | ⟨1, _⟩ => exact (lhs1 _ _).trans hk)
  have er : (D).rhsIdx j ((ValueIdx.contrEquiv1 (D) 128 rfl rfl).symm k) = rhsB j k := funext fun a => Fin.ext (by
    match a with
    | ⟨0, _⟩ => exact (rhs0 _ _).trans hk
    | ⟨1, _⟩ => exact rhs1 _ _)
  rw [el, er]

/-- The whole payload at (r, c) of a block. -/
theorem pay_apply (v0 : Vec Ideal S4000x128 .f32) (v2 : Vec Ideal S4000x1 .f32) (v7 : Vec Ideal S128x64 .f32)
    (v10 : Vec Ideal S1x64 .f32) (j : S4000x64.Idx) :
    k2_pay1 v0 v2 v7 v10 j
      = max ((∑ k : Fin 128, (v0 (lhsB j k) * v2 (colB j)) * v7 (rhsB j k)) + v10 (rowB j)) (Ideal.ofBits .f32 0x00000000#32) := by
  unfold k2_pay1
  simp only [ValueIdx.truncf_apply, ValueIdx.mulf_apply, ValueIdx.maximumf_apply, ValueIdx.addf_apply, shapeCast_self, ValueIdx.broadcast_apply]
  rw [product_apply, spreadRow_apply]
  refine congrArg (fun s => max (s + v10 (rowB j)) _) (Finset.sum_congr rfl fun k _ => ?_)
  rw [ValueIdx.truncf_apply, ValueIdx.truncf_apply, ValueIdx.mulf_apply, spreadCol_apply]

theorem zeroOffsets : (![0, 0] : Fin 2 → Nat) = fun _ => 0 := funext fun a => by fin_cases a <;> rfl

/-- The printed index maps over the 25 grid points: the row-tiled windows sit at block (t, 0), the weight matrix and the
    bias row at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- What point `t` writes back is block `t` of `output` of the four arrays as the launch found them. -/
theorem flushed_eq (c : Dev nD) (t : Fin cfg2.N) :
    (dat2 V c).flushed 4 t = ((cfg2.win 4).blk t).view.read (Elt Ideal)
      (output (V c main_v42) (V c main_v43) (V c main_arg4) (V c main_v44)) := by
  show (cfg2.win 4).cut (grid2.coords t) ((dat2 V c).after 4 t) = _
  rw [after2_4]
  unfold out2_4
  rw [View.canon_unit_zero zeroOffsets]
  simp only [View.ld_unit_zero (S := S4000x128) zeroOffsets, View.ld_unit_zero (S := S4000x1) zeroOffsets,
    View.ld_unit_zero (S := S128x64) zeroOffsets, View.ld_unit_zero (S := S1x64) zeroOffsets]
  obtain ⟨e00, e01, e10, e11, e20, e21, e30, e31, e40, e41⟩ := idx_facts t
  funext j
  show k2_pay1 (iblk2 V c 0 t) (iblk2 V c 1 t) (iblk2 V c 2 t) (iblk2 V c 3 t) j
    = output (V c main_v42) (V c main_v43) (V c main_arg4) (V c main_v44) (((cfg2.win 4).blk t).view.emb j)
  refine (pay_apply _ _ _ _ j).trans ?_
  have hA : ∀ k : Fin 128, iblk2 V c 0 t (lhsB j k) = V c main_v42 (lhsA (((cfg2.win 4).blk t).view.emb j) k) := fun k => by
    show V c main_v42 (((cfg2.win 0).blk t).view.emb (lhsB j k)) = _
    refine congrArg (V c main_v42) (funext fun a => Fin.ext ?_)
    match a with
    | ⟨0, _⟩ => show win2_0.index t (0 : Fin 2) * 4000 + 1 * (j 0).val = win2_4.index t (0 : Fin 2) * 4000 + 1 * (j 0).val; omega
    | ⟨1, _⟩ => show win2_0.index t (1 : Fin 2) * 128 + 1 * k.val = k.val; omega
  have hd : iblk2 V c 1 t (colB j) = V c main_v43 (colA (((cfg2.win 4).blk t).view.emb j)) := by
    show V c main_v43 (((cfg2.win 1).blk t).view.emb (colB j)) = _
    refine congrArg (V c main_v43) (funext fun a => Fin.ext ?_)
    match a with
    | ⟨0, _⟩ => show win2_1.index t (0 : Fin 2) * 4000 + 1 * (j 0).val = win2_4.index t (0 : Fin 2) * 4000 + 1 * (j 0).val; omega
    | ⟨1, _⟩ => show win2_1.index t (1 : Fin 2) * 1 + 1 * 0 = 0; omega
  have hW : ∀ k : Fin 128, iblk2 V c 2 t (rhsB j k) = V c main_arg4 (rhsA (((cfg2.win 4).blk t).view.emb j) k) := fun k => by
    show V c main_arg4 (((cfg2.win 2).blk t).view.emb (rhsB j k)) = _
    refine congrArg (V c main_arg4) (funext fun a => Fin.ext ?_)
    match a with
    | ⟨0, _⟩ => show win2_2.index t (0 : Fin 2) * 128 + 1 * k.val = k.val; omega
    | ⟨1, _⟩ => show win2_2.index t (1 : Fin 2) * 64 + 1 * (j 1).val = win2_4.index t (1 : Fin 2) * 64 + 1 * (j 1).val; omega
  have hb : iblk2 V c 3 t (rowB j) = V c main_v44 (rowA (((cfg2.win 4).blk t).view.emb j)) := by
    show V c main_v44 (((cfg2.win 3).blk t).view.emb (rowB j)) = _
    refine congrArg (V c main_v44) (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega
  rw [hd, hb]
  unfold output
  refine congrArg (fun s => max (s + _) _) (Finset.sum_congr rfl fun k _ => ?_)
  rw [hA k, hW k]

/-- An index of the output is in point `t`'s block iff each coordinate is in the block's range on its axis. -/
theorem mem_blk (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v45).slice (win2_4.rect t)).set ↔ _
  rw [View.set_slice_whole, Rect.mem_set_unit]
  exact Iff.rfl

/-- Row r lies in the block of point r / 4000: the 25 blocks tile the output. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  refine ⟨⟨(i 0).val / 4000, by show (i 0).val / 4000 < 25; omega⟩, flush2_4 _, ?_⟩
  rw [mem_blk]
  obtain ⟨e00, e01, e10, e11, e20, e21, e30, e31, e40, e41⟩ := idx_facts ⟨(i 0).val / 4000, by show (i 0).val / 4000 < 25; omega⟩
  intro a
  match a with
  | ⟨0, _⟩ =>
    show win2_4.index _ (0 : Fin 2) * 4000 ≤ (i 0).val ∧ (i 0).val < win2_4.index _ (0 : Fin 2) * 4000 + 4000
    rw [e40]; show (i 0).val / 4000 * 4000 ≤ (i 0).val ∧ (i 0).val < (i 0).val / 4000 * 4000 + 4000; omega
  | ⟨1, _⟩ =>
    show win2_4.index _ (1 : Fin 2) * 64 ≤ (i 1).val ∧ (i 1).val < win2_4.index _ (1 : Fin 2) * 64 + 64
    rw [e41]; omega

/-- After the launch the output array is `output` of the four input arrays as the launch found them. -/
theorem final (c : Dev nD) : (dat2 V c).arrAt 4 cfg2.N
    = output (V c main_v42) (V c main_v43) (V c main_arg4) (V c main_v44) :=
  (dat2 V c).arrAt_eq_of_cover 4 _ (fun t _ => flushed_eq V c t) cover

end Cert.KernelIdeal.OutputLayer

end
-- ==== Proof.Bridge.lean ====
/-
  The three kernel launches against the reference's stages, index by index on the extended reals.

  Write E for the edge array, x for the features, c_out = rsqrt(max(1, out-degree)), c_in = rsqrt(max(1, in-degree)).
  The reference computes, per layer, with its own host operations,
      scale:   s[r, j]  = h[r, j] · c_out[r]
      gather by source and add by destination (kept as one opaque step: both programs apply the same operations to it)
      dense:   relu( Σ_k (agg[r, k] · c_in[r]) · W[k, c] + b[c] ).
  The kernel's first launch is the layer-1 scale; its second is the layer-1 dense step followed by the layer-2 scale; its
  third is the layer-2 dense step. So, fed the reference's own arrays, each launch's whole-array function IS the
  reference's next stage: the only differences are how a per-row factor or the bias reaches the entry (a [100000, 1] column
  or a [1, n] row read in a block, against two host broadcasts) and the name of the summation index; the matrix product
  is the same sum over k on both sides, and the layer-2 degrees, which the reference computes a second time from the same
  edge array, are the same arrays as the layer-1 ones.
-/
import proofs.«131777_j78039555768418_2_alg».proof.Proof.RowScale
import proofs.«131777_j78039555768418_2_alg».proof.Proof.HiddenLayer
import proofs.«131777_j78039555768418_2_alg».proof.Proof.OutputLayer
import proofs.«131777_j78039555768418_2_alg».proof.Proof.Gen.ReferenceIdeal.Read

noncomputable section

namespace Cert.Bridge

open Cert.ReferenceIdeal Cert.ReferenceIdeal.Gen Cert.ReferenceIdeal.Read Idealize.ShloMosaic Idealize.ShloMosaic.TcCoe Idealize.SL.Sem

/-! ## A vector laid out as a column or as a row -/

/-- A vector of 100000 entries laid out as a [100000, 1] column holds, in row r, entry r. -/
theorem column_apply {α : Type} (v : S100000.Idx → α) (h : S100000.ShapeCasts S100000x1) (j : S100000x1.Idx) :
    shapeCast S100000x1 v h j = v (idx_main_v14 j) :=
  shapeCast_apply v h j (idx_main_v14 j) (by
    have hu : (j 1).val < 1 := (j 1).isLt
    rw [Shape.rowMajor_val_one, Shape.rowMajor_val_two]
    show (j 0).val = (j 0).val * 1 + (j 1).val
    omega)

/-- A vector of 128 entries laid out as a [1, 128] row holds, in column c, entry c. -/
theorem row128_apply {α : Type} (v : S128.Idx → α) (h : S128.ShapeCasts S1x128) (j : S1x128.Idx) :
    shapeCast S1x128 v h j = v (idx_main_v32 j) :=
  shapeCast_apply v h j (idx_main_v32 j) (by
    have hu : (j 0).val < 1 := (j 0).isLt
    rw [Shape.rowMajor_val_one, Shape.rowMajor_val_two]
    show (j 1).val = (j 0).val * 128 + (j 1).val
    omega)

/-- A vector of 64 entries laid out as a [1, 64] row holds, in column c, entry c. -/
theorem row64_apply {α : Type} (v : S64.Idx → α) (h : S64.ShapeCasts S1x64) (j : S1x64.Idx) :
    shapeCast S1x64 v h j = v (idx_main_v64 j) :=
  shapeCast_apply v h j (idx_main_v64 j) (by
    have hu : (j 0).val < 1 := (j 0).isLt
    rw [Shape.rowMajor_val_one, Shape.rowMajor_val_two]
    show (j 1).val = (j 0).val * 64 + (j 1).val
    omega)

/-! ## The degrees are computed once: layer 2's copies are layer 1's -/

variable (E : (⟨S2x1600000, .i32⟩ : BufTy).Contents (Elt Ideal))

/-- The reciprocal root of the clipped out-degree, as layer 2 recomputes it, is layer 1's. -/
theorem outFactor_again : val_main_v45 (F := Ideal) E = val_main_v13 (F := Ideal) E := rfl
/-- The reciprocal root of the clipped in-degree, as layer 2 recomputes it, is layer 1's. -/
theorem inFactor_again : val_main_v59 (F := Ideal) E = val_main_v27 (F := Ideal) E := rfl

/-! ## Launch 1 is the layer-1 scale -/

theorem scale_eq (x0 : (⟨S100000x128, .f32⟩ : BufTy).Contents (Elt Ideal)) (h : S100000.ShapeCasts S100000x1) :
    Cert.KernelIdeal.RowScale.scaled x0 (shapeCast S100000x1 (val_main_v13 (F := Ideal) E) h) = val_main_v16 (F := Ideal) x0 E := by
  funext i
  rw [val_main_v16_apply, val_main_v15_apply, val_main_v14_apply]
  unfold Cert.KernelIdeal.RowScale.scaled
  rw [column_apply]
  have e : idx_main_v14 (Cert.KernelIdeal.RowScale.colOf i) = idx_main_v14 (idx_main_v15 i) := funext fun a => by
    match a with
    | ⟨0, _⟩ => rfl
  rw [e]
  rfl

/-! ## Launch 2 is the layer-1 dense step followed by the layer-2 scale -/

theorem hidden_eq (x0 : (⟨S100000x128, .f32⟩ : BufTy).Contents (Elt Ideal)) (x2 : (⟨S128x128, .f32⟩ : BufTy).Contents (Elt Ideal))
    (x3 : (⟨S128, .f32⟩ : BufTy).Contents (Elt Ideal)) (hc : S100000.ShapeCasts S100000x1) (hr : S128.ShapeCasts S1x128) :
    Cert.KernelIdeal.HiddenLayer.hidden (val_main_v26 (F := Ideal) x0 E) (shapeCast S100000x1 (val_main_v27 (F := Ideal) E) hc) x2
        (shapeCast S1x128 x3 hr) (shapeCast S100000x1 (val_main_v13 (F := Ideal) E) hc)
      = val_main_v48 (F := Ideal) x0 E x2 x3 := by
  funext i
  rw [val_main_v48_apply, val_main_v35_apply, val_main_v34_apply, val_main_v31_apply, val_main_v33_apply, val_main_v32_apply,
    val_main_call2_v0_apply, val_main_call2_cst_apply, val_main_v47_apply, val_main_v46_apply, outFactor_again]
  unfold Cert.KernelIdeal.HiddenLayer.hidden
  rw [column_apply, column_apply, row128_apply]
  have eOut : idx_main_v14 (Cert.KernelIdeal.HiddenLayer.colA i) = idx_main_v46 (idx_main_v47 i) := funext fun a => by
    match a with
    | ⟨0, _⟩ => rfl
  have eB : idx_main_v32 (Cert.KernelIdeal.HiddenLayer.rowA i) = idx_main_v32 (idx_main_v33 i) := funext fun a => by
    match a with
    | ⟨0, _⟩ => rfl
  rw [eB]
  simp only [Ideal.mulf_def, Ideal.addf_def, Ideal.maximumf_def, Ideal.ofBits_def]
  refine congrArg₂ (fun s f => max (s + x3 (idx_main_v32 (idx_main_v33 i))) (Ideal.ofBits .f32 0x00000000#32) * f) (Finset.sum_congr rfl fun k _ => ?_) (congrArg _ eOut)
  rw [val_main_v30_apply, val_main_v29_apply, val_main_v28_apply]
  have eIn : idx_main_v14 (Cert.KernelIdeal.HiddenLayer.colA i) = idx_main_v28 (idx_main_v29 (lidx_main_v31 i k)) := funext fun a => by
    match a with
    | ⟨0, _⟩ => rfl
  have eL : Cert.KernelIdeal.HiddenLayer.lhsA i k = lidx_main_v31 i k := funext fun a => by
    match a with
    | ⟨0, _⟩ => rfl
    | ⟨1, _⟩ => rfl
  have eR : Cert.KernelIdeal.HiddenLayer.rhsA i k = ridx_main_v31 i k := funext fun a => by
    match a with
    | ⟨0, _⟩ => rfl
    | ⟨1, _⟩ => rfl
  rw [eIn, eL, eR]
  rfl

/-! ## Launch 3 is the layer-2 dense step -/

theorem output_eq (x0 : (⟨S100000x128, .f32⟩ : BufTy).Contents (Elt Ideal)) (x2 : (⟨S128x128, .f32⟩ : BufTy).Contents (Elt Ideal))
    (x3 : (⟨S128, .f32⟩ : BufTy).Contents (Elt Ideal)) (x4 : (⟨S128x64, .f32⟩ : BufTy).Contents (Elt Ideal))
    (x5 : (⟨S64, .f32⟩ : BufTy).Contents (Elt Ideal)) (hc : S100000.ShapeCasts S100000x1) (hr : S64.ShapeCasts S1x64) :
    Cert.KernelIdeal.OutputLayer.output (val_main_v58 (F := Ideal) x0 E x2 x3) (shapeCast S100000x1 (val_main_v27 (F := Ideal) E) hc) x4
        (shapeCast S1x64 x5 hr)
      = val_main_v67 (F := Ideal) x0 E x2 x3 x4 x5 := by
  funext i
  rw [val_main_v67_apply, val_main_v66_apply, val_main_v63_apply, val_main_v65_apply, val_main_v64_apply,
    val_main_call5_v0_apply, val_main_call5_cst_apply]
  unfold Cert.KernelIdeal.OutputLayer.output
  rw [column_apply, row64_apply]
  have eB : idx_main_v64 (Cert.KernelIdeal.OutputLayer.rowA i) = idx_main_v64 (idx_main_v65 i) := funext fun a => by
    match a with
    | ⟨0, _⟩ => rfl
  rw [eB]
  simp only [Ideal.mulf_def, Ideal.addf_def, Ideal.maximumf_def, Ideal.ofBits_def]
  refine congrArg (fun s => max (s + x5 (idx_main_v64 (idx_main_v65 i))) (Ideal.ofBits .f32 0x00000000#32)) (Finset.sum_congr rfl fun k _ => ?_)
  rw [val_main_v62_apply, val_main_v61_apply, val_main_v60_apply, inFactor_again]
  have eIn : idx_main_v14 (Cert.KernelIdeal.OutputLayer.colA i) = idx_main_v60 (idx_main_v61 (lidx_main_v63 i k)) := funext fun a => by
    match a with
    | ⟨0, _⟩ => rfl
  have eL : Cert.KernelIdeal.OutputLayer.lhsA i k = lidx_main_v63 i k := funext fun a => by
    match a with
    | ⟨0, _⟩ => rfl
    | ⟨1, _⟩ => rfl
  have eR : Cert.KernelIdeal.OutputLayer.rhsA i k = ridx_main_v63 i k := funext fun a => by
    match a with
    | ⟨0, _⟩ => rfl
    | ⟨1, _⟩ => rfl
  rw [eIn, eL, eR]
  rfl

end Cert.Bridge

end
-- ==== Proof.KernelValue.lean ====
/-
  The kernel program's result is the reference's result.

  Launch by launch: the first launch's output is the reference's scaled features (its operands at entry are the features
  and the out-degree factors as a column); so the second launch's aggregated operand is the reference's layer-1 aggregate,
  its other operands the in-degree column, the layer-1 weights, the bias row and the out-degree column, and its output is
  the reference's layer-1 activation already scaled for layer 2; so the third launch's aggregated operand is the
  reference's layer-2 aggregate, and its output — the program's result — is the reference's last stage, as a function of
  the six arrays the program was launched with.
-/
import proofs.«131777_j78039555768418_2_alg».proof.Proof.LaterEntries
import proofs.«131777_j78039555768418_2_alg».proof.Proof.Bridge

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- After the first launch its output array holds the reference's scaled features. -/
theorem launch1 : W6 m ρ c (Proc.devRef .tc main_v16) = Cert.ReferenceIdeal.Read.val_main_v16 (F := Ideal) (m ((c.tc : Thread nD τ).loc main_arg0)) (m ((c.tc : Thread nD τ).loc main_arg1)) :=
  calc W6 m ρ c (Proc.devRef .tc main_v16)
      = (dat0 (V5 m ρ) c).arrAt 2 cfg0.N := W6_arr m ρ c 2
    _ = RowScale.scaled (V5 m ρ c main_arg0) (V5 m ρ c main_v15) := RowScale.final (V5 m ρ) c
    _ = RowScale.scaled (m ((c.tc : Thread nD τ).loc main_arg0)) (shapeCast S100000x1 (Cert.ReferenceIdeal.Read.val_main_v13 (F := Ideal) (m ((c.tc : Thread nD τ).loc main_arg1))) shapeCasts_S100000_S100000x1) := by
          rw [FirstEntry.first_col m ρ c, show V5 m ρ c main_arg0 = (m ((c.tc : Thread nD τ).loc main_arg0)) from FirstEntry.first_x m ρ c]
    _ = Cert.ReferenceIdeal.Read.val_main_v16 (F := Ideal) (m ((c.tc : Thread nD τ).loc main_arg0)) (m ((c.tc : Thread nD τ).loc main_arg1)) := Cert.Bridge.scale_eq _ _ _

/-- After the second launch its output array holds the reference's layer-1 activation scaled for layer 2. -/
theorem launch2 : W8 m ρ c (Proc.devRef .tc main_v31) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) :=
  calc W8 m ρ c (Proc.devRef .tc main_v31)
      = (dat1 (V7 m ρ) c).arrAt 5 cfg1.N := W8_arr m ρ c 5
    _ = HiddenLayer.hidden (V7 m ρ c main_v27) (V7 m ρ c main_v28) (V7 m ρ c main_arg2) (V7 m ρ c main_v29) (V7 m ρ c main_v30) :=
          HiddenLayer.final (V7 m ρ) c
    _ = HiddenLayer.hidden (Cert.ReferenceIdeal.Read.val_main_v26 (F := Ideal) (m ((c.tc : Thread nD τ).loc main_arg0)) (m ((c.tc : Thread nD τ).loc main_arg1)))
          (shapeCast S100000x1 (Cert.ReferenceIdeal.Read.val_main_v27 (F := Ideal) (m ((c.tc : Thread nD τ).loc main_arg1))) shapeCasts_S100000_S100000x1) (m ((c.tc : Thread nD τ).loc main_arg2))
          (shapeCast S1x128 (m ((c.tc : Thread nD τ).loc main_arg3)) shapeCasts_S128_S1x128)
          (shapeCast S100000x1 (Cert.ReferenceIdeal.Read.val_main_v13 (F := Ideal) (m ((c.tc : Thread nD τ).loc main_arg1))) shapeCasts_S100000_S100000x1) := by
          rw [LaterEntries.second_agg m ρ c (launch1 m ρ c), LaterEntries.second_in m ρ c, LaterEntries.second_W m ρ c,
            LaterEntries.second_b m ρ c, LaterEntries.second_out m ρ c]
    _ = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) := Cert.Bridge.hidden_eq _ _ _ _ _ _

/-- After the third launch the program's result array holds the reference's last stage. -/
theorem launch3 : W10 m ρ c (Proc.devRef .tc main_v45)
    = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  calc W10 m ρ c (Proc.devRef .tc main_v45)
      = (dat2 (V9 m ρ) c).arrAt 4 cfg2.N := W10_arr m ρ c 4
    _ = OutputLayer.output (V9 m ρ c main_v42) (V9 m ρ c main_v43) (V9 m ρ c main_arg4) (V9 m ρ c main_v44) :=
          OutputLayer.final (V9 m ρ) c
    _ = OutputLayer.output (Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)))
          (shapeCast S100000x1 (Cert.ReferenceIdeal.Read.val_main_v27 (F := Ideal) (m ((c.tc : Thread nD τ).loc main_arg1))) shapeCasts_S100000_S100000x1) (m ((c.tc : Thread nD τ).loc main_arg4))
          (shapeCast S1x64 (m ((c.tc : Thread nD τ).loc main_arg5)) shapeCasts_S64_S1x64) := by
          rw [LaterEntries.third_agg m ρ c (launch2 m ρ c), LaterEntries.third_in m ρ c, LaterEntries.third_W m ρ c,
            LaterEntries.third_b m ρ c]
    _ = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := Cert.Bridge.output_eq _ _ _ _ _ _ _ _

end Cert.KernelIdeal.Result

end
-- ==== Proof.lean ====
/-
  Two graph-convolution layers, D_in^{-1/2} · A · D_out^{-1/2} · h · W + b followed by max(·, 0), over 100000 nodes and
  1600000 edges: the kernel program against its plain reference, equal on the extended reals.

  Both programs compute the clipped node degrees and their reciprocal square roots, and gather rows by source index and
  add them up by destination index, with the same host operations. They differ in where the dense arithmetic runs. The
  reference does everything on the host. The kernel program runs three launches of 25 row blocks each: the first scales
  the features by the out-degree factor; the second multiplies the aggregate by the in-degree factor and the layer-1
  weights, adds the bias, takes max(·, 0) and scales by the out-degree factor for the next layer; the third does the
  layer-2 product, bias and max(·, 0). The stored intermediates change float format, which is the identity on the
  extended reals, and a block's matrix product into a zero accumulator is the same sum over k as the host's product. So
  each launch's output, as one function of the arrays it found, is the reference's next stage (Proof/Bridge.lean over
  Proof/RowScale.lean, Proof/HiddenLayer.lean, Proof/OutputLayer.lean); the arrays each launch finds are the reference's
  stages of the arguments (Proof/FirstEntry.lean, Proof/LaterEntries.lean); and the program's run ends with its result at
  the last boundary's contents (Proof/KernelRun.lean), which is therefore the reference's result (Proof/KernelValue.lean).
  No law used needs the inputs to be finite: the precondition is not opened.

  The three frame claims are the generated frame certificates (the reference's: its generated run with the result
  dropped); the ideal pass rewrote nothing in the kernel program, so the idealization claim is `True`.
-/
import proofs.«131777_j78039555768418_2_alg».proof.Defs
import proofs.«131777_j78039555768418_2_alg».proof.Proof.Gen.Kernel
import proofs.«131777_j78039555768418_2_alg».proof.Proof.Gen.Kernel.Skeleton
import proofs.«131777_j78039555768418_2_alg».proof.Proof.Gen.Kernel.Launch
import proofs.«131777_j78039555768418_2_alg».proof.Proof.Gen.Kernel.Points
import proofs.«131777_j78039555768418_2_alg».proof.Proof.Gen.Kernel.Frame
import proofs.«131777_j78039555768418_2_alg».proof.Proof.Gen.KernelIdeal
import proofs.«131777_j78039555768418_2_alg».proof.Proof.Gen.KernelIdeal.Skeleton
import proofs.«131777_j78039555768418_2_alg».proof.Proof.Gen.KernelIdeal.Launch
import proofs.«131777_j78039555768418_2_alg».proof.Proof.Gen.KernelIdeal.Points
import proofs.«131777_j78039555768418_2_alg».proof.Proof.Gen.KernelIdeal.Frame
import proofs.«131777_j78039555768418_2_alg».proof.Proof.Gen.ReferenceIdeal
import proofs.«131777_j78039555768418_2_alg».proof.Proof.Gen.ReferenceIdeal.Run
import proofs.«131777_j78039555768418_2_alg».proof.Proof.Gen.ReferenceIdeal.Read
import proofs.«131777_j78039555768418_2_alg».proof.Proof.Gen.Pre_finite_inputs
import proofs.«131777_j78039555768418_2_alg».proof.Proof.KernelRun
import proofs.«131777_j78039555768418_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- On the extended reals both programs, run from memories that agree on the six arguments, end with the same result
    array: the kernel program's is the last boundary's contents of its result buffer, which is the reference's last stage
    of the arguments; the reference's run ends at that stage of its own, equal, arguments. -/
theorem algebraic : Cert.algebraic_KernelIdeal_ReferenceIdeal := by
  intro m ρ m' ρ' _ hagree
  refine ⟨fun c => Cert.KernelIdeal.Gen.W10 m ρ c (Proc.devRef .tc Cert.KernelIdeal.main_v45),
    Cert.KernelIdeal.WholeRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, (hagree c).1, (hagree c).2.1, (hagree c).2.2.1, (hagree c).2.2.2.1,
    (hagree c).2.2.2.2.1, (hagree c).2.2.2.2.2]
  exact (Cert.KernelIdeal.Result.launch3 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
